-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128x128 : Shape := ⟨4, ![8, 256, 128, 128]⟩
abbrev S_ : Shape := ⟨0, ![]⟩

class Facts : Prop where
  bcast_S_S8x256x128x128 : S_.BroadcastsInDim S8x256x128x128 (![] : Fin 0 → Fin S8x256x128x128.rank)
  reducesTo_S8x256x128x128_S_d0_1_2_3 : S8x256x128x128.ReducesTo [0, 1, 2, 3] S_
  h_S_ : 0 < S_.numel

variable [Facts]

def fn {F : FTy → Type} [FloatOps F] (main_arg0 : FVec F S8x256x128x128 .f32) : IVec S_ 1 :=
  let main_v0 : FVec F S8x256x128x128 .f32 := Host.absf main_arg0
  let main_cst : FVec F S_ .f32 := constant S_ .f32 0x7F800000#32
  let main_v1 : FVec F S8x256x128x128 .f32 := broadcastInDim S8x256x128x128 ![] bcast_S_S8x256x128x128 main_cst
  let main_v2 : IVec S8x256x128x128 1 := cmpf .olt main_v0 main_v1
  let main_c : IVec S_ 1 := constantI S_ 1 1#1
  let main_v3 : IVec S_ 1 := (fun x v => Host.reduce IntOp.andi x v reducesTo_S8x256x128x128_S_d0_1_2_3 h_S_) main_v2 main_c
  main_v3
-- ==== Kernel.lean ====
abbrev S8x256x128x128 : Shape := ⟨4, ![8, 256, 128, 128]⟩
abbrev S8x64x256x256 : Shape := ⟨4, ![8, 64, 256, 256]⟩
abbrev S1x64x128x128 : Shape := ⟨4, ![1, 64, 128, 128]⟩
abbrev S1x16x256x256 : Shape := ⟨4, ![1, 16, 256, 256]⟩
abbrev S64x128x128 : Shape := ⟨3, ![64, 128, 128]⟩
abbrev S16x4x128x128 : Shape := ⟨4, ![16, 4, 128, 128]⟩
abbrev S16x1x128x128 : Shape := ⟨4, ![16, 1, 128, 128]⟩
abbrev S16x128x128 : Shape := ⟨3, ![16, 128, 128]⟩
abbrev S16x128x128x1 : Shape := ⟨4, ![16, 128, 128, 1]⟩
abbrev S16x128x128x2 : Shape := ⟨4, ![16, 128, 128, 2]⟩
abbrev S16x128x128x1x2 : Shape := ⟨5, ![16, 128, 128, 1, 2]⟩
abbrev S16x128x128x2x2 : Shape := ⟨5, ![16, 128, 128, 2, 2]⟩
abbrev S16x128x2x128x2 : Shape := ⟨5, ![16, 128, 2, 128, 2]⟩
abbrev S16x256x128x2 : Shape := ⟨4, ![16, 256, 128, 2]⟩
abbrev S16x256x256 : Shape := ⟨3, ![16, 256, 256]⟩

abbrev nBuf : Space → Nat
  | .hbm => 2
  | .vmem => 4
  | .smem => 0
  | _ => 0

abbrev bufTy : (tb : Table) → Fin (tcTables nBuf tb) → BufTy
  | .hbm, ⟨0, _⟩ => ⟨S8x256x128x128, .f32⟩
  | .hbm, ⟨1, _⟩ => ⟨S8x64x256x256, .f32⟩
  | .local _ .vmem, ⟨0, _⟩ => ⟨S1x64x128x128, .f32⟩
  | .local _ .vmem, ⟨1, _⟩ => ⟨S1x64x128x128, .f32⟩
  | .local _ .vmem, ⟨2, _⟩ => ⟨S1x16x256x256, .f32⟩
  | .local _ .vmem, ⟨3, _⟩ => ⟨S1x16x256x256, .f32⟩
  | _, _ => ⟨S8x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x64x128x128_S1x64x128x128_0_0_0_0 : ∀ a, (![0, 0, 0, 0] : Fin 4 → Nat) a + S1x64x128x128.size a ≤ S1x64x128x128.size a
  h_S1x64x128x128 : 0 < S1x64x128x128.numel
  shapeCasts_S1x64x128x128_S64x128x128 : S1x64x128x128.ShapeCasts S64x128x128
  shapeCasts_S64x128x128_S16x4x128x128 : S64x128x128.ShapeCasts S16x4x128x128
  slices_S16x4x128x128_o0_0_0_0_S16x1x128x128 : S16x4x128x128.Slices ![0, 0, 0, 0] S16x1x128x128
  shapeCasts_S16x1x128x128_S16x128x128 : S16x1x128x128.ShapeCasts S16x128x128
  slices_S16x4x128x128_o0_1_0_0_S16x1x128x128 : S16x4x128x128.Slices ![0, 1, 0, 0] S16x1x128x128
  slices_S16x4x128x128_o0_2_0_0_S16x1x128x128 : S16x4x128x128.Slices ![0, 2, 0, 0] S16x1x128x128
  slices_S16x4x128x128_o0_3_0_0_S16x1x128x128 : S16x4x128x128.Slices ![0, 3, 0, 0] S16x1x128x128
  shapeCasts_S16x128x128_S16x128x128x1 : S16x128x128.ShapeCasts S16x128x128x1
  concatenates_S16x128x128x1_S16x128x128x1_S16x128x128x2_d3 : Shape.Concatenates [S16x128x128x1, S16x128x128x1] S16x128x128x2 3
  shapeCasts_S16x128x128x2_S16x128x128x1x2 : S16x128x128x2.ShapeCasts S16x128x128x1x2
  concatenates_S16x128x128x1x2_S16x128x128x1x2_S16x128x128x2x2_d3 : Shape.Concatenates [S16x128x128x1x2, S16x128x128x1x2] S16x128x128x2x2 3
  transposes_S16x128x128x2x2_p0_1_3_2_4_S16x128x2x128x2 : S16x128x128x2x2.Transposes [0, 1, 3, 2, 4] S16x128x2x128x2
  shapeCasts_S16x128x2x128x2_S16x256x128x2 : S16x128x2x128x2.ShapeCasts S16x256x128x2
  shapeCasts_S16x256x128x2_S16x256x256 : S16x256x128x2.ShapeCasts S16x256x256
  inb_S1x16x256x256_S1x16x256x256_0_0_0_0 : ∀ a, (![0, 0, 0, 0] : Fin 4 → Nat) a + S1x16x256x256.size a ≤ S1x16x256x256.size a
  h_S1x16x256x256 : 0 < S1x16x256x256.numel
  shapeCasts_S1x16x256x256_S16x256x256 : S1x16x256x256.ShapeCasts S16x256x256
  shapeCasts_S16x256x256_S1x16x256x256 : S16x256x256.ShapeCasts S1x16x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128x128.size a ≤ S8x256x128x128.size a
  hwx0_0 : ∀ i : grid0.Coords, EltTy.bits .f32 = 32 ∨ (Rect.block (s := S8x256x128x128) S1x64x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x256x256.size a ≤ S8x64x256x256.size a
  hwx0_1 : ∀ i : grid0.Coords, EltTy.bits .f32 = 32 ∨ (Rect.block (s := S8x64x256x256) S1x16x256x256.size (cc0_transform_1 i) (hinb0_1 i)).WholeWords (EltTy.packing .f32)

variable [Facts₀]

abbrev win0_0 : Pipeline.Window sig grid0 :=
  Pipeline.Window.ofSpec (Memref.whole main_arg0) S1x64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x16x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x256x128x128 : Shape := ⟨4, ![8, 256, 128, 128]⟩
abbrev S8x64x4x128x128 : Shape := ⟨5, ![8, 64, 4, 128, 128]⟩
abbrev S8x64x1x128x128 : Shape := ⟨5, ![8, 64, 1, 128, 128]⟩
abbrev S8x64x128x128 : Shape := ⟨4, ![8, 64, 128, 128]⟩
abbrev S_ : Shape := ⟨0, ![]⟩
abbrev S8x64x128x128x1 : Shape := ⟨5, ![8, 64, 128, 128, 1]⟩
abbrev S8x64x128x128x2 : Shape := ⟨5, ![8, 64, 128, 128, 2]⟩
abbrev S8x64x128x128x1x2 : Shape := ⟨6, ![8, 64, 128, 128, 1, 2]⟩
abbrev S8x64x128x128x2x2 : Shape := ⟨6, ![8, 64, 128, 128, 2, 2]⟩
abbrev S8x64x128x2x128x2 : Shape := ⟨6, ![8, 64, 128, 2, 128, 2]⟩
abbrev S8x64x256x256 : Shape := ⟨4, ![8, 64, 256, 256]⟩

abbrev nBuf : Space → Nat
  | .hbm => 45
  | .vmem => 0
  | .smem => 0
  | _ => 0

abbrev bufTy : (tb : Table) → Fin (tcTables nBuf tb) → BufTy
  | .hbm, ⟨0, _⟩ => ⟨S8x256x128x128, .f32⟩
  | .hbm, ⟨1, _⟩ => ⟨S8x64x4x128x128, .f32⟩
  | .hbm, ⟨2, _⟩ => ⟨S8x64x1x128x128, .f32⟩
  | .hbm, ⟨3, _⟩ => ⟨S8x64x128x128, .f32⟩
  | .hbm, ⟨4, _⟩ => ⟨S8x64x1x128x128, .f32⟩
  | .hbm, ⟨5, _⟩ => ⟨S8x64x128x128, .f32⟩
  | .hbm, ⟨6, _⟩ => ⟨S8x64x1x128x128, .f32⟩
  | .hbm, ⟨7, _⟩ => ⟨S8x64x128x128, .f32⟩
  | .hbm, ⟨8, _⟩ => ⟨S8x64x1x128x128, .f32⟩
  | .hbm, ⟨9, _⟩ => ⟨S8x64x128x128, .f32⟩
  | .hbm, ⟨10, _⟩ => ⟨S8x64x128x128, .f32⟩
  | .hbm, ⟨11, _⟩ => ⟨S8x64x128x128, .f32⟩
  | .hbm, ⟨12, _⟩ => ⟨S8x64x128x128, .f32⟩
  | .hbm, ⟨13, _⟩ => ⟨S_, .f32⟩
  | .hbm, ⟨14, _⟩ => ⟨S8x64x128x128, .f32⟩
  | .hbm, ⟨15, _⟩ => ⟨S8x64x128x128, .f32⟩
  | .hbm, ⟨16, _⟩ => ⟨S8x64x128x128, .f32⟩
  | .hbm, ⟨17, _⟩ => ⟨S8x64x128x128, .f32⟩
  | .hbm, ⟨18, _⟩ => ⟨S8x64x128x128, .f32⟩
  | .hbm, ⟨19, _⟩ => ⟨S_, .f32⟩
  | .hbm, ⟨20, _⟩ => ⟨S8x64x128x128, .f32⟩
  | .hbm, ⟨21, _⟩ => ⟨S8x64x128x128, .f32⟩
  | .hbm, ⟨22, _⟩ => ⟨S8x64x128x128, .f32⟩
  | .hbm, ⟨23, _⟩ => ⟨S8x64x128x128, .f32⟩
  | .hbm, ⟨24, _⟩ => ⟨S8x64x128x128, .f32⟩
  | .hbm, ⟨25, _⟩ => ⟨S_, .f32⟩
  | .hbm, ⟨26, _⟩ => ⟨S8x64x128x128, .f32⟩
  | .hbm, ⟨27, _⟩ => ⟨S8x64x128x128, .f32⟩
  | .hbm, ⟨28, _⟩ => ⟨S8x64x128x128, .f32⟩
  | .hbm, ⟨29, _⟩ => ⟨S8x64x128x128, .f32⟩
  | .hbm, ⟨30, _⟩ => ⟨S8x64x128x128, .f32⟩
  | .hbm, ⟨31, _⟩ => ⟨S_, .f32⟩
  | .hbm, ⟨32, _⟩ => ⟨S8x64x128x128, .f32⟩
  | .hbm, ⟨33, _⟩ => ⟨S8x64x128x128, .f32⟩
  | .hbm, ⟨34, _⟩ => ⟨S8x64x128x128x1, .f32⟩
  | .hbm, ⟨35, _⟩ => ⟨S8x64x128x128x1, .f32⟩
  | .hbm, ⟨36, _⟩ => ⟨S8x64x128x128x2, .f32⟩
  | .hbm, ⟨37, _⟩ => ⟨S8x64x128x128x1, .f32⟩
  | .hbm, ⟨38, _⟩ => ⟨S8x64x128x128x1, .f32⟩
  | .hbm, ⟨39, _⟩ => ⟨S8x64x128x128x2, .f32⟩
  | .hbm, ⟨40, _⟩ => ⟨S8x64x128x128x1x2, .f32⟩
  | .hbm, ⟨41, _⟩ => ⟨S8x64x128x128x1x2, .f32⟩
  | .hbm, ⟨42, _⟩ => ⟨S8x64x128x128x2x2, .f32⟩
  | .hbm, ⟨43, _⟩ => ⟨S8x64x128x2x128x2, .f32⟩
  | .hbm, ⟨44, _⟩ => ⟨S8x64x256x256, .f32⟩
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst_0 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_1 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_2 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩

abbrev nD : Nat := 1
abbrev τ : Topo := Topo.v7x

variable {F : FTy → Type} [FloatOps F]

class Facts₀ : Prop where
  shapeCasts_S8x256x128x128_S8x64x4x128x128 : S8x256x128x128.ShapeCasts S8x64x4x128x128
  slices_S8x64x4x128x128_S8x64x1x128x128_0_0_0_0_0 : S8x64x4x128x128.Slices ![0, 0, 0, 0, 0] S8x64x1x128x128
  shapeCasts_S8x64x1x128x128_S8x64x128x128 : S8x64x1x128x128.ShapeCasts S8x64x128x128
  slices_S8x64x4x128x128_S8x64x1x128x128_0_0_1_0_0 : S8x64x4x128x128.Slices ![0, 0, 1, 0, 0] S8x64x1x128x128
  slices_S8x64x4x128x128_S8x64x1x128x128_0_0_2_0_0 : S8x64x4x128x128.Slices ![0, 0, 2, 0, 0] S8x64x1x128x128
  slices_S8x64x4x128x128_S8x64x1x128x128_0_0_3_0_0 : S8x64x4x128x128.Slices ![0, 0, 3, 0, 0] S8x64x1x128x128
  bcast_S_S8x64x128x128 : S_.BroadcastsInDim S8x64x128x128 (![] : Fin 0 → Fin S8x64x128x128.rank)
  bcast_S8x64x128x128_S8x64x128x128x1_0_1_2_3 : S8x64x128x128.BroadcastsInDim S8x64x128x128x1 (![0, 1, 2, 3] : Fin 4 → Fin S8x64x128x128x1.rank)
  concatenates_S8x64x128x128x1_S8x64x128x128x1_S8x64x128x128x2_d4 : Shape.Concatenates [S8x64x128x128x1, S8x64x128x128x1] S8x64x128x128x2 4
  bcast_S8x64x128x128x2_S8x64x128x128x1x2_0_1_2_3_5 : S8x64x128x128x2.BroadcastsInDim S8x64x128x128x1x2 (![0, 1, 2, 3, 5] : Fin 5 → Fin S8x64x128x128x1x2.rank)
  concatenates_S8x64x128x128x1x2_S8x64x128x128x1x2_S8x64x128x128x2x2_d4 : Shape.Concatenates [S8x64x128x128x1x2, S8x64x128x128x1x2] S8x64x128x128x2x2 4
  transposes_S8x64x128x128x2x2_S8x64x128x2x128x2_0_1_2_4_3_5 : S8x64x128x128x2x2.Transposes [0, 1, 2, 4, 3, 5] S8x64x128x2x128x2
  shapeCasts_S8x64x128x2x128x2_S8x64x256x256 : S8x64x128x2x128x2.ShapeCasts S8x64x256x256

variable [Facts₀]

class Facts : Prop extends Facts₀ where

variable [Facts]
-- ==== Proof.HaarSpec.lean ====
/-
  The inverse Haar step ("unsqueeze") as ONE function of the input array, index by index.

  The input has 256 channels per batch entry, read as 64 groups of four planes (a, h, v, d) of 128 × 128 pixels.
  Output channel g at pixel (r, s) of the 256 × 256 plane comes from the four planes of group g at pixel
  (r / 2, s / 2); which signed combination is taken depends only on the parities (r mod 2, s mod 2):

      (0, 0) ↦ ½ · (((a + h) + v) + d)        (0, 1) ↦ ½ · (((a − h) + v) − d)
      (1, 0) ↦ ½ · (((a + h) − v) − d)        (1, 1) ↦ ½ · (((a − h) − v) + d)

  Everything here is stated over an arbitrary float instance: the two programs compared later spell these four
  expressions with the same operations in the same order, so no law of arithmetic is ever used.
-/
import Idealize.ShloMosaic.PureOps
import Idealize.ShloMosaic.Lib.ValueIdx

noncomputable section

namespace Haar

open Idealize.ShloMosaic Idealize.ShloMosaic.ValueIdx

variable {F : FTy → Type} [FloatOps F]

/-- The input array: batch × (64 groups × 4 planes) × 128 × 128. -/
abbrev SIn : Shape := ⟨4, ![8, 256, 128, 128]⟩
/-- One plane per group: batch × group × 128 × 128 (the shape of each of a, h, v, d). -/
abbrev SMid : Shape := ⟨4, ![8, 64, 128, 128]⟩
/-- The output array: batch × group × 256 × 256. -/
abbrev SOut : Shape := ⟨4, ![8, 64, 256, 256]⟩

/-- The scale ½, as the word both programs print. -/
def half : F .f32 := FloatOps.ofBits .f32 0x3F000000#32

/-- The signed combination chosen by the row parity `p` and the column parity `q` (0 or not 0). -/
def quad (p q : Nat) (a h v d : F .f32) : F .f32 :=
  if p = 0 then
    if q = 0 then FloatOps.addf (FloatOps.addf (FloatOps.addf a h) v) d
    else FloatOps.subf (FloatOps.addf (FloatOps.subf a h) v) d
  else
    if q = 0 then FloatOps.subf (FloatOps.subf (FloatOps.addf a h) v) d
    else FloatOps.addf (FloatOps.subf (FloatOps.subf a h) v) d

theorem quad_00 (a h v d : F .f32) :
    quad 0 0 a h v d = FloatOps.addf (FloatOps.addf (FloatOps.addf a h) v) d := by
  unfold quad; rw [if_pos rfl, if_pos rfl]
theorem quad_01 (a h v d : F .f32) :
    quad 0 1 a h v d = FloatOps.subf (FloatOps.addf (FloatOps.subf a h) v) d := by
  unfold quad; rw [if_pos rfl, if_neg (by decide)]
theorem quad_10 (a h v d : F .f32) :
    quad 1 0 a h v d = FloatOps.subf (FloatOps.subf (FloatOps.addf a h) v) d := by
  unfold quad; rw [if_neg (by decide), if_pos rfl]
theorem quad_11 (a h v d : F .f32) :
    quad 1 1 a h v d = FloatOps.addf (FloatOps.subf (FloatOps.subf a h) v) d := by
  unfold quad; rw [if_neg (by decide), if_neg (by decide)]

/-- Plane `k` (0 = a, 1 = h, 2 = v, 3 = d) of the group and pixel that `j` names: channel `4 · group + k`. -/
def chan (j : SMid.Idx) (k : Fin 4) : SIn.Idx :=
  ix4 (j 0) (⟨4 * (j 1).val + k.val, by have h1 : (j 1).val < 64 := (j 1).isLt; have hk : k.val < 4 := k.isLt; show _ < 256; omega⟩ : Fin 256) (j 2) (j 3)

/-- ½ · (the combination for parities `p`, `q`) of the four planes of `y` at the group and pixel `j`. -/
def mix (y : SIn.Idx → F .f32) (j : SMid.Idx) (p q : Nat) : F .f32 :=
  FloatOps.mulf half (quad p q (y (chan j 0)) (y (chan j 1)) (y (chan j 2)) (y (chan j 3)))

/-- The low-resolution pixel under output position `i`: same batch entry and group, pixel (r / 2, s / 2). -/
def pix (i : SOut.Idx) : SMid.Idx :=
  ix4 (i 0) (i 1)
    (⟨(i 2).val / 2, by have h2 : (i 2).val < 256 := (i 2).isLt; show _ < 128; omega⟩ : Fin 128)
    (⟨(i 3).val / 2, by have h3 : (i 3).val < 256 := (i 3).isLt; show _ < 128; omega⟩ : Fin 128)

/-- THE SPECIFICATION: the output array as one function of the input array. -/
def unsqueeze (y : SIn.Idx → F .f32) : SOut.Idx → F .f32 := fun i =>
  mix y (pix i) ((i 2).val % 2) ((i 3).val % 2)

end Haar

end
-- ==== Proof.RefStages.lean ====
/-
  The reference program's last stage is the specification `Haar.unsqueeze` of its argument array.

  The reference splits the 256 channels into 64 groups × 4 planes, takes the four planes a, h, v, d, forms the four
  scaled signed combinations, stacks them along two new unit axes (column parity, then row parity), swaps the row-parity
  axis in front of the pixel column, and merges (pixel row, row parity) and (pixel column, column parity). Read at an
  output position (b, g, r, s) this is: the combination for parities (r mod 2, s mod 2) of the four planes of group g
  at pixel (r / 2, s / 2). The generated read-at-an-index lemmas cover the splits, slices, pointwise operations,
  broadcasts and the transpose; the three stackings and the final merge are read here.
-/
import proofs.«132142_j7387343749494_1_alg».proof.Proof.Gen.ReferenceIdeal.Read
import proofs.«132142_j7387343749494_1_alg».proof.Proof.HaarSpec
import Idealize.ShloMosaic.Lib.Pipeline.Value
import Idealize.ShloMosaic.Lib.ValueIdx
import Idealize.ShloMosaic.Lib.ValueIdxRank6

noncomputable section

namespace Cert.ReferenceIdeal.RefValue

open Cert.ReferenceIdeal Cert.ReferenceIdeal.Read Idealize.ShloMosaic Idealize.ShloMosaic.ValueIdx Haar

variable {F : FTy → Type} [FloatOps F]

/-! ## The four planes -/

/-- Plane a of a group: split channels into (group, plane), keep plane 0, drop the unit axis. -/
theorem plane_a (x0 : SIn.Idx → F .f32) (j : SMid.Idx) : val_main_v2 (F := F) x0 j = x0 (chan j 0) := by
  rw [val_main_v2_apply, val_main_v1_apply, val_main_v0_apply]
  refine congrArg x0 (funext fun a => Fin.ext ?_)
  have h0 : (j 0).val < 8 := (j 0).isLt
  have h1 : (j 1).val < 64 := (j 1).isLt
  have h2 : (j 2).val < 128 := (j 2).isLt
  have h3 : (j 3).val < 128 := (j 3).isLt
  match a with
  | ⟨0, _⟩ => dsimp only [idx_main_v0, idx_main_v1, idx_main_v2, chan, ix4]; omega
  | ⟨1, _⟩ => dsimp only [idx_main_v0, idx_main_v1, idx_main_v2, chan, ix4]; omega
  | ⟨2, _⟩ => dsimp only [idx_main_v0, idx_main_v1, idx_main_v2, chan, ix4]; omega
  | ⟨3, _⟩ => dsimp only [idx_main_v0, idx_main_v1, idx_main_v2, chan, ix4]; omega

/-- Plane h: plane 1 of the group. -/
theorem plane_h (x0 : SIn.Idx → F .f32) (j : SMid.Idx) : val_main_v4 (F := F) x0 j = x0 (chan j 1) := by
  rw [val_main_v4_apply, val_main_v3_apply, val_main_v0_apply]
  refine congrArg x0 (funext fun a => Fin.ext ?_)
  have h0 : (j 0).val < 8 := (j 0).isLt
  have h1 : (j 1).val < 64 := (j 1).isLt
  have h2 : (j 2).val < 128 := (j 2).isLt
  have h3 : (j 3).val < 128 := (j 3).isLt
  match a with
  | ⟨0, _⟩ => dsimp only [idx_main_v0, idx_main_v3, idx_main_v4, chan, ix4]; omega
  | ⟨1, _⟩ => dsimp only [idx_main_v0, idx_main_v3, idx_main_v4, chan, ix4]; omega
  | ⟨2, _⟩ => dsimp only [idx_main_v0, idx_main_v3, idx_main_v4, chan, ix4]; omega
  | ⟨3, _⟩ => dsimp only [idx_main_v0, idx_main_v3, idx_main_v4, chan, ix4]; omega

/-- Plane v: plane 2 of the group. -/
theorem plane_v (x0 : SIn.Idx → F .f32) (j : SMid.Idx) : val_main_v6 (F := F) x0 j = x0 (chan j 2) := by
  rw [val_main_v6_apply, val_main_v5_apply, val_main_v0_apply]
  refine congrArg x0 (funext fun a => Fin.ext ?_)
  have h0 : (j 0).val < 8 := (j 0).isLt
  have h1 : (j 1).val < 64 := (j 1).isLt
  have h2 : (j 2).val < 128 := (j 2).isLt
  have h3 : (j 3).val < 128 := (j 3).isLt
  match a with
  | ⟨0, _⟩ => dsimp only [idx_main_v0, idx_main_v5, idx_main_v6, chan, ix4]; omega
  | ⟨1, _⟩ => dsimp only [idx_main_v0, idx_main_v5, idx_main_v6, chan, ix4]; omega
  | ⟨2, _⟩ => dsimp only [idx_main_v0, idx_main_v5, idx_main_v6, chan, ix4]; omega
  | ⟨3, _⟩ => dsimp only [idx_main_v0, idx_main_v5, idx_main_v6, chan, ix4]; omega

/-- Plane d: plane 3 of the group. -/
theorem plane_d (x0 : SIn.Idx → F .f32) (j : SMid.Idx) : val_main_v8 (F := F) x0 j = x0 (chan j 3) := by
  rw [val_main_v8_apply, val_main_v7_apply, val_main_v0_apply]
  refine congrArg x0 (funext fun a => Fin.ext ?_)
  have h0 : (j 0).val < 8 := (j 0).isLt
  have h1 : (j 1).val < 64 := (j 1).isLt
  have h2 : (j 2).val < 128 := (j 2).isLt
  have h3 : (j 3).val < 128 := (j 3).isLt
  match a with
  | ⟨0, _⟩ => dsimp only [idx_main_v0, idx_main_v7, idx_main_v8, chan, ix4]; omega
  | ⟨1, _⟩ => dsimp only [idx_main_v0, idx_main_v7, idx_main_v8, chan, ix4]; omega
  | ⟨2, _⟩ => dsimp only [idx_main_v0, idx_main_v7, idx_main_v8, chan, ix4]; omega
  | ⟨3, _⟩ => dsimp only [idx_main_v0, idx_main_v7, idx_main_v8, chan, ix4]; omega

/-! ## The four scaled combinations, each a plane of its own -/

/-- Even row, even column: ½ · (((a + h) + v) + d). -/
theorem even_even (x0 : SIn.Idx → F .f32) (j : SMid.Idx) : val_main_v13 (F := F) x0 j = mix x0 j 0 0 := by
  rw [val_main_v13_apply, val_main_v12_apply, val_main_cst_apply, val_main_v11_apply, val_main_v10_apply,
    val_main_v9_apply, plane_a, plane_h, plane_v, plane_d]
  unfold mix; rw [quad_00]; rfl

/-- Even row, odd column: ½ · (((a − h) + v) − d). -/
theorem even_odd (x0 : SIn.Idx → F .f32) (j : SMid.Idx) : val_main_v18 (F := F) x0 j = mix x0 j 0 1 := by
  rw [val_main_v18_apply, val_main_v17_apply, val_main_cst_0_apply, val_main_v16_apply, val_main_v15_apply,
    val_main_v14_apply, plane_a, plane_h, plane_v, plane_d]
  unfold mix; rw [quad_01]; rfl

/-- Odd row, even column: ½ · (((a + h) − v) − d). -/
theorem odd_even (x0 : SIn.Idx → F .f32) (j : SMid.Idx) : val_main_v23 (F := F) x0 j = mix x0 j 1 0 := by
  rw [val_main_v23_apply, val_main_v22_apply, val_main_cst_1_apply, val_main_v21_apply, val_main_v20_apply,
    val_main_v19_apply, plane_a, plane_h, plane_v, plane_d]
  unfold mix; rw [quad_10]; rfl

/-- Odd row, odd column: ½ · (((a − h) − v) + d). -/
theorem odd_odd (x0 : SIn.Idx → F .f32) (j : SMid.Idx) : val_main_v28 (F := F) x0 j = mix x0 j 1 1 := by
  rw [val_main_v28_apply, val_main_v27_apply, val_main_cst_2_apply, val_main_v26_apply, val_main_v25_apply,
    val_main_v24_apply, plane_a, plane_h, plane_v, plane_d]
  unfold mix; rw [quad_11]; rfl

/-! ## Stacking along the column parity -/

/-- The even-row pair stacked along a new last axis: coordinate `q` there selects the column parity. -/
theorem even_row (x0 : SIn.Idx → F .f32) (j : S8x64x128x128x2.Idx) :
    val_main_v31 (F := F) x0 j = mix x0 (ix4 (j 0) (j 1) (j 2) (j 3)) 0 (j 4).val := by
  have h4 : (j 4).val < 2 := (j 4).isLt
  unfold val_main_v31
  rcases Nat.lt_or_ge (j 4).val 1 with h | h
  · have e : (j 4).val = 0 := by omega
    rw [e]
    refine (concatenate_pair_apply_left (s₁ := S8x64x128x128x1) (s₂ := S8x64x128x128x1) (4 : Fin 5) _ _ _ j rfl
      (ix5 (j 0 : Fin 8) (j 1 : Fin 64) (j 2 : Fin 128) (j 3 : Fin 128) (0 : Fin 1)) ?_).trans ?_
    · intro b
      match b with
      | ⟨0, _⟩ => rfl
      | ⟨1, _⟩ => rfl
      | ⟨2, _⟩ => rfl
      | ⟨3, _⟩ => rfl
      | ⟨4, _⟩ => exact e.symm
    · rw [val_main_v29_apply]; exact even_even x0 _
  · have e : (j 4).val = 1 := by omega
    rw [e]
    refine (concatenate_pair_apply_right (s₁ := S8x64x128x128x1) (s₂ := S8x64x128x128x1) (4 : Fin 5) _ _ _ j rfl rfl
      (ix5 (j 0 : Fin 8) (j 1 : Fin 64) (j 2 : Fin 128) (j 3 : Fin 128) (0 : Fin 1)) ?_ ?_).trans ?_
    · intro b hb
      match b with
      | ⟨0, _⟩ => rfl
      | ⟨1, _⟩ => rfl
      | ⟨2, _⟩ => rfl
      | ⟨3, _⟩ => rfl
      | ⟨4, _⟩ => exact absurd rfl hb
    · show 0 + 1 = (j 4).val; omega
    · rw [val_main_v30_apply]; exact even_odd x0 _

/-- The odd-row pair stacked the same way. -/
theorem odd_row (x0 : SIn.Idx → F .f32) (j : S8x64x128x128x2.Idx) :
    val_main_v34 (F := F) x0 j = mix x0 (ix4 (j 0) (j 1) (j 2) (j 3)) 1 (j 4).val := by
  have h4 : (j 4).val < 2 := (j 4).isLt
  unfold val_main_v34
  rcases Nat.lt_or_ge (j 4).val 1 with h | h
  · have e : (j 4).val = 0 := by omega
    rw [e]
    refine (concatenate_pair_apply_left (s₁ := S8x64x128x128x1) (s₂ := S8x64x128x128x1) (4 : Fin 5) _ _ _ j rfl
      (ix5 (j 0 : Fin 8) (j 1 : Fin 64) (j 2 : Fin 128) (j 3 : Fin 128) (0 : Fin 1)) ?_).trans ?_
    · intro b
      match b with
      | ⟨0, _⟩ => rfl
      | ⟨1, _⟩ => rfl
      | ⟨2, _⟩ => rfl
      | ⟨3, _⟩ => rfl
      | ⟨4, _⟩ => exact e.symm
    · rw [val_main_v32_apply]; exact odd_even x0 _
  · have e : (j 4).val = 1 := by omega
    rw [e]
    refine (concatenate_pair_apply_right (s₁ := S8x64x128x128x1) (s₂ := S8x64x128x128x1) (4 : Fin 5) _ _ _ j rfl rfl
      (ix5 (j 0 : Fin 8) (j 1 : Fin 64) (j 2 : Fin 128) (j 3 : Fin 128) (0 : Fin 1)) ?_ ?_).trans ?_
    · intro b hb
      match b with
      | ⟨0, _⟩ => rfl
      | ⟨1, _⟩ => rfl
      | ⟨2, _⟩ => rfl
      | ⟨3, _⟩ => rfl
      | ⟨4, _⟩ => exact absurd rfl hb
    · show 0 + 1 = (j 4).val; omega
    · rw [val_main_v33_apply]; exact odd_odd x0 _

/-! ## Stacking along the row parity -/

/-- Both rows stacked along a new axis in front of the column parity: coordinates `(p, q)` on the last two axes select
    the combination. -/
theorem both_rows (x0 : SIn.Idx → F .f32) (j : S8x64x128x128x2x2.Idx) :
    val_main_v37 (F := F) x0 j = mix x0 (ix4 (j 0) (j 1) (j 2) (j 3)) (j 4).val (j 5).val := by
  have h4 : (j 4).val < 2 := (j 4).isLt
  unfold val_main_v37
  rcases Nat.lt_or_ge (j 4).val 1 with h | h
  · have e : (j 4).val = 0 := by omega
    rw [e]
    refine (concatenate_pair_apply_left (s₁ := S8x64x128x128x1x2) (s₂ := S8x64x128x128x1x2) (4 : Fin 6) _ _ _ j rfl
      (ix6 (j 0 : Fin 8) (j 1 : Fin 64) (j 2 : Fin 128) (j 3 : Fin 128) (0 : Fin 1) (j 5 : Fin 2)) ?_).trans ?_
    · intro b
      match b with
      | ⟨0, _⟩ => rfl
      | ⟨1, _⟩ => rfl
      | ⟨2, _⟩ => rfl
      | ⟨3, _⟩ => rfl
      | ⟨4, _⟩ => exact e.symm
      | ⟨5, _⟩ => rfl
    · rw [val_main_v35_apply]; exact even_row x0 _
  · have e : (j 4).val = 1 := by omega
    rw [e]
    refine (concatenate_pair_apply_right (s₁ := S8x64x128x128x1x2) (s₂ := S8x64x128x128x1x2) (4 : Fin 6) _ _ _ j rfl rfl
      (ix6 (j 0 : Fin 8) (j 1 : Fin 64) (j 2 : Fin 128) (j 3 : Fin 128) (0 : Fin 1) (j 5 : Fin 2)) ?_ ?_).trans ?_
    · intro b hb
      match b with
      | ⟨0, _⟩ => rfl
      | ⟨1, _⟩ => rfl
      | ⟨2, _⟩ => rfl
      | ⟨3, _⟩ => rfl
      | ⟨4, _⟩ => exact absurd rfl hb
      | ⟨5, _⟩ => rfl
    · show 0 + 1 = (j 4).val; omega
    · rw [val_main_v36_apply]; exact odd_row x0 _

/-! ## The swap and the merge -/

/-- THE REFERENCE IS THE SPECIFICATION: its last stage, as a function of the argument array, is `Haar.unsqueeze`. -/
theorem result_eq (x0 : SIn.Idx → F .f32) : val_main_v39 (F := F) x0 = unsqueeze x0 := by
  funext i
  have h0 : (i 0).val < 8 := (i 0).isLt
  have h1 : (i 1).val < 64 := (i 1).isLt
  have h2 : (i 2).val < 256 := (i 2).isLt
  have h3 : (i 3).val < 256 := (i 3).isLt
  unfold val_main_v39
  refine (shapeCast_apply _ _ i
    (ix6 (i 0) (i 1) (⟨(i 2).val / 2, by omega⟩ : Fin 128) (⟨(i 2).val % 2, by omega⟩ : Fin 2)
      (⟨(i 3).val / 2, by omega⟩ : Fin 128) (⟨(i 3).val % 2, by omega⟩ : Fin 2) : S8x64x128x2x128x2.Idx) ?_).trans ?_
  · rw [Shape.rowMajor_val_six, Shape.rowMajor_val_four]
    show (((((i 0).val * 64 + (i 1).val) * 128 + (i 2).val / 2) * 2 + (i 2).val % 2) * 128 + (i 3).val / 2) * 2 + (i 3).val % 2
      = (((i 0).val * 64 + (i 1).val) * 256 + (i 2).val) * 256 + (i 3).val
    omega
  · rw [val_main_v38_apply, both_rows]
    rfl

end Cert.ReferenceIdeal.RefValue

end
-- ==== Proof.KernelBlock.lean ====
/-
  What one grid point leaves in its output block, as the specification's formula on that block.

  A point's input block holds 64 channels — 16 groups × 4 planes — of 128 × 128 pixels; its output block holds the 16
  groups' 256 × 256 planes. The generated value leg has already read the body's outer re-layings (the row-parity
  stacking, the swap of that axis in front of the pixel column, and the two merges): block position (0, g, r, s) reads
  operand `r mod 2` of the row-parity stacking at (g, r / 2, s / 2, 0, s mod 2). Read here is the rest: the column-parity
  stacking, the four scaled signed combinations, and the four planes as slices of the (group, plane) split.
-/
import proofs.«132142_j7387343749494_1_alg».proof.Proof.Gen.KernelIdeal.Value
import proofs.«132142_j7387343749494_1_alg».proof.Proof.HaarSpec
import Idealize.ShloMosaic.Lib.Pipeline.Value
import Idealize.ShloMosaic.Lib.ValueIdx

noncomputable section

namespace Cert.KernelIdeal.BlockValue

open Cert.KernelIdeal Cert.KernelIdeal.Gen Cert.KernelIdeal.Value Idealize.ShloMosaic Idealize.ShloMosaic.ValueIdx Haar

variable {F : FTy → Type} [FloatOps F]

/-- Inside an input block: plane `k` of the in-block group and pixel `jb` is channel `4 · group + k` of the block. -/
def chanB (jb : S16x128x128.Idx) (k : Fin 4) : S1x64x128x128.Idx :=
  ix4 (0 : Fin 1)
    (⟨4 * (jb 0).val + k.val, by have h0 : (jb 0).val < 16 := (jb 0).isLt; have hk : k.val < 4 := k.isLt; show _ < 64; omega⟩ : Fin 64)
    (jb 1) (jb 2)

/-- ½ · (the combination for parities `p`, `q`) of the four planes of the block `P` at in-block group and pixel `jb`. -/
def mixB (P : Vec F S1x64x128x128 .f32) (jb : S16x128x128.Idx) (p q : Nat) : F .f32 :=
  FloatOps.mulf half (quad p q (P (chanB jb 0)) (P (chanB jb 1)) (P (chanB jb 2)) (P (chanB jb 3)))

/-! ## The four planes of a block -/

/-- Drop the block's unit batch axis, split its channels into (group, plane), keep plane `k`, drop the unit axis:
    at in-block group and pixel `jb` that is the block at channel `4 · group + k`. -/
theorem plane (P : Vec F S1x64x128x128 .f32) (k : Nat) (hk : k < 4)
    (hs : S16x4x128x128.Slices ![0, k, 0, 0] S16x1x128x128) (jb : S16x128x128.Idx) :
    shapeCast S16x128x128 (extractStridedSlice S16x1x128x128 ![0, k, 0, 0]
      (shapeCast S16x4x128x128 (shapeCast S64x128x128 P shapeCasts_S1x64x128x128_S64x128x128)
        shapeCasts_S64x128x128_S16x4x128x128) hs) shapeCasts_S16x1x128x128_S16x128x128 jb
      = P (chanB jb ⟨k, hk⟩) := by
  have h0 : (jb 0).val < 16 := (jb 0).isLt
  have h1 : (jb 1).val < 128 := (jb 1).isLt
  have h2 : (jb 2).val < 128 := (jb 2).isLt
  refine (shapeCast_apply _ _ jb (ix4 (jb 0) (0 : Fin 1) (jb 1) (jb 2) : S16x1x128x128.Idx) ?_).trans ?_
  · rw [Shape.rowMajor_val_four, Shape.rowMajor_val_three]
    show (((jb 0).val * 1 + 0) * 128 + (jb 1).val) * 128 + (jb 2).val = ((jb 0).val * 128 + (jb 1).val) * 128 + (jb 2).val
    omega
  refine (extractStridedSlice_apply _ _ hs _ (ix4 (jb 0) (⟨k, hk⟩ : Fin 4) (jb 1) (jb 2) : S16x4x128x128.Idx) ?_).trans ?_
  · intro a
    match a with
    | ⟨0, _⟩ => show (jb 0).val = 0 + (jb 0).val; omega
    | ⟨1, _⟩ => show k = k + 0; omega
    | ⟨2, _⟩ => show (jb 1).val = 0 + (jb 1).val; omega
    | ⟨3, _⟩ => show (jb 2).val = 0 + (jb 2).val; omega
  refine (shapeCast_apply _ _ _ (ix3 (⟨4 * (jb 0).val + k, by omega⟩ : Fin 64) (jb 1) (jb 2) : S64x128x128.Idx) ?_).trans ?_
  · rw [Shape.rowMajor_val_three, Shape.rowMajor_val_four]
    show ((4 * (jb 0).val + k) * 128 + (jb 1).val) * 128 + (jb 2).val
      = (((jb 0).val * 4 + k) * 128 + (jb 1).val) * 128 + (jb 2).val
    omega
  refine shapeCast_apply _ _ _ (chanB jb ⟨k, hk⟩) ?_
  rw [Shape.rowMajor_val_four, Shape.rowMajor_val_three]
  show ((0 * 64 + (4 * (jb 0).val + k)) * 128 + (jb 1).val) * 128 + (jb 2).val
    = ((4 * (jb 0).val + k) * 128 + (jb 1).val) * 128 + (jb 2).val
  omega

/-! ## Stacking two planes along the column parity -/

/-- Two planes, each given a trailing unit axis, joined along it, then a unit axis put in front of the joined one: at
    (g, i, j, 0, q) that is the first plane at (g, i, j) when `q = 0`, the second when `q = 1`. -/
theorem stack_cols (X Y : FVec F S16x128x128 .f32) (j : S16x128x128x1x2.Idx) :
    shapeCast S16x128x128x1x2 (concatenate S16x128x128x2 3
        [⟨S16x128x128x1, shapeCast S16x128x128x1 X shapeCasts_S16x128x128_S16x128x128x1⟩,
         ⟨S16x128x128x1, shapeCast S16x128x128x1 Y shapeCasts_S16x128x128_S16x128x128x1⟩]
        concatenates_S16x128x128x1_S16x128x128x1_S16x128x128x2_d3) shapeCasts_S16x128x128x2_S16x128x128x1x2 j
      = if (j 4).val = 0 then X (ix3 (j 0) (j 1) (j 2) : S16x128x128.Idx)
        else Y (ix3 (j 0) (j 1) (j 2) : S16x128x128.Idx) := by
  have h0 : (j 0).val < 16 := (j 0).isLt
  have h1 : (j 1).val < 128 := (j 1).isLt
  have h2 : (j 2).val < 128 := (j 2).isLt
  have h3 : (j 3).val < 1 := (j 3).isLt
  have h4 : (j 4).val < 2 := (j 4).isLt
  refine (shapeCast_apply _ _ j (ix4 (j 0) (j 1) (j 2) (j 4) : S16x128x128x2.Idx) ?_).trans ?_
  · rw [Shape.rowMajor_val_four, Shape.rowMajor_val_five]
    show (((j 0).val * 128 + (j 1).val) * 128 + (j 2).val) * 2 + (j 4).val
      = ((((j 0).val * 128 + (j 1).val) * 128 + (j 2).val) * 1 + (j 3).val) * 2 + (j 4).val
    omega
  rcases Nat.lt_or_ge (j 4).val 1 with h | h
  · have e : (j 4).val = 0 := by omega
    rw [if_pos e]
    refine (concatenate_pair_apply_left (t := S16x128x128x2) (s₁ := S16x128x128x1) (s₂ := S16x128x128x1) (3 : Fin 4) _ _ _ _ rfl
      (ix4 (j 0) (j 1) (j 2) (0 : Fin 1) : S16x128x128x1.Idx) ?_).trans ?_
    · intro b
      match b with
      | ⟨0, _⟩ => rfl
      | ⟨1, _⟩ => rfl
      | ⟨2, _⟩ => rfl
      | ⟨3, _⟩ => exact e.symm
    · refine shapeCast_apply _ _ _ _ ?_
      rw [Shape.rowMajor_val_three, Shape.rowMajor_val_four]
      show ((j 0).val * 128 + (j 1).val) * 128 + (j 2).val = (((j 0).val * 128 + (j 1).val) * 128 + (j 2).val) * 1 + 0
      omega
  · have e : (j 4).val = 1 := by omega
    rw [if_neg (by omega)]
    refine (concatenate_pair_apply_right (t := S16x128x128x2) (s₁ := S16x128x128x1) (s₂ := S16x128x128x1) (3 : Fin 4) _ _ _ _ rfl rfl
      (ix4 (j 0) (j 1) (j 2) (0 : Fin 1) : S16x128x128x1.Idx) ?_ ?_).trans ?_
    · intro b hb
      match b with
      | ⟨0, _⟩ => rfl
      | ⟨1, _⟩ => rfl
      | ⟨2, _⟩ => rfl
      | ⟨3, _⟩ => exact absurd rfl hb
    · show 0 + 1 = (j 4).val; omega
    · refine shapeCast_apply _ _ _ _ ?_
      rw [Shape.rowMajor_val_three, Shape.rowMajor_val_four]
      show ((j 0).val * 128 + (j 1).val) * 128 + (j 2).val = (((j 0).val * 128 + (j 1).val) * 128 + (j 2).val) * 1 + 0
      omega

/-! ## The operands of the row-parity stacking -/

/-- Operand `n` of the row-parity stacking (n = 0 the even rows, n = 1 the odd rows) at (g, i, j, 0, q): the combination for
    parities (n, q) of the block's four planes of group g at pixel (i, j), scaled by ½. -/
theorem operand_eq (P : Vec F S1x64x128x128 .f32) (n : Fin 2) (j : S16x128x128x1x2.Idx) :
    Cat1_0 P n j = mixB P (ix3 (j 0) (j 1) (j 2) : S16x128x128.Idx) n.val (j 4).val := by
  have h4 : (j 4).val < 2 := (j 4).isLt
  match n with
  | ⟨0, _⟩ =>
    refine (stack_cols _ _ j).trans ?_
    rcases Nat.lt_or_ge (j 4).val 1 with h | h
    · have e : (j 4).val = 0 := by omega
      rw [if_pos e, e]
      show FloatOps.mulf _ (FloatOps.addf (FloatOps.addf (FloatOps.addf _ _) _) _) = _
      rw [plane P 0 (by decide), plane P 1 (by decide), plane P 2 (by decide), plane P 3 (by decide)]
      unfold mixB; rw [quad_00]; rfl
    · have e : (j 4).val = 1 := by omega
      rw [if_neg (by omega), e]
      show FloatOps.mulf _ (FloatOps.subf (FloatOps.addf (FloatOps.subf _ _) _) _) = _
      rw [plane P 0 (by decide), plane P 1 (by decide), plane P 2 (by decide), plane P 3 (by decide)]
      unfold mixB; rw [quad_01]; rfl
  | ⟨1, _⟩ =>
    refine (stack_cols _ _ j).trans ?_
    rcases Nat.lt_or_ge (j 4).val 1 with h | h
    · have e : (j 4).val = 0 := by omega
      rw [if_pos e, e]
      show FloatOps.mulf _ (FloatOps.subf (FloatOps.subf (FloatOps.addf _ _) _) _) = _
      rw [plane P 0 (by decide), plane P 1 (by decide), plane P 2 (by decide), plane P 3 (by decide)]
      unfold mixB; rw [quad_10]; rfl
    · have e : (j 4).val = 1 := by omega
      rw [if_neg (by omega), e]
      show FloatOps.mulf _ (FloatOps.addf (FloatOps.subf (FloatOps.subf _ _) _) _) = _
      rw [plane P 0 (by decide), plane P 1 (by decide), plane P 2 (by decide), plane P 3 (by decide)]
      unfold mixB; rw [quad_11]; rfl

/-! ## The block a point leaves -/

/-- WHAT A POINT LEAVES IN ITS OUTPUT BLOCK, from its input block `P`: at block position (0, g, r, s), the combination for
    parities (r mod 2, s mod 2) of the four planes of in-block group g at pixel (r / 2, s / 2), scaled by ½. -/
theorem block_eq (P : Vec F S1x64x128x128 .f32) (y : S1x16x256x256.Idx) :
    E1 P y = mixB P (ix3 (y 1)
        (⟨(y 2).val / 2, by have h2 : (y 2).val < 256 := (y 2).isLt; omega⟩ : Fin 128)
        (⟨(y 3).val / 2, by have h3 : (y 3).val < 256 := (y 3).isLt; omega⟩ : Fin 128) : S16x128x128.Idx)
      ((y 2).val % 2) ((y 3).val % 2) := by
  show Cat1_0 P (csel1_0 y) (ix1_0 y) = _
  rw [operand_eq]
  rfl

end Cert.KernelIdeal.BlockValue

end
-- ==== Proof.KernelArray.lean ====
/-
  From blocks to the whole array: after the kernel's run its output array is `Haar.unsqueeze` of its argument array.

  The grid has 8 × 4 points. Point (b, c) reads the input block of batch entry b, channels 64c … 64c + 63 (sixteen groups of
  four planes), and writes the output block of batch entry b, groups 16c … 16c + 15. A block's position in its array is
  always (block index × block extent + position inside the block) on each axis, so in-block group g of point (b, c) is
  group 16c + g of the array, whose planes are the array's channels 4 · (16c + g) + k = 64c + (4g + k): exactly the
  in-block channels the block formula reads. The planes are not cut (block index 0 on the pixel axes), so pixel halves
  and parities inside the block are those of the array. The 32 output blocks tile the output array.
-/
import proofs.«132142_j7387343749494_1_alg».proof.Proof.Gen.KernelIdeal.Value
import proofs.«132142_j7387343749494_1_alg».proof.Proof.HaarSpec
import proofs.«132142_j7387343749494_1_alg».proof.Proof.KernelBlock
import Idealize.ShloMosaic.Lib.Pipeline.Value
import Idealize.ShloMosaic.Lib.ValueIdx

noncomputable section

namespace Cert.KernelIdeal.ArrayValue

open Cert.KernelIdeal Cert.KernelIdeal.Gen Cert.KernelIdeal.Value Cert.KernelIdeal.BlockValue
open Idealize.ShloMosaic Idealize.ShloMosaic.TcCoe Idealize.SL.Sem Idealize.ShloMosaic.ValueIdx Haar
open Idealize.ShloMosaic.Pipeline (Dat)

variable {F : FTy → Type} [FloatOps F]
variable (m : (ℓ : Loc nD τ sig) → Buf (Elt F) ℓ) (ρ : Dev nD → PrngReg)

theorem zero_offsets : (![0, 0, 0, 0] : Fin 4 → Nat) = fun _ => 0 := funext fun a => by fin_cases a <;> rfl

/-- The block formula over a block `P` is the array formula over an array `A` whenever the four planes agree and the
    parities agree. -/
theorem mixB_eq_mix (P : Vec F S1x64x128x128 .f32) (A : SIn.Idx → F .f32) (jb : S16x128x128.Idx) (j : SMid.Idx)
    (hP : ∀ k : Fin 4, P (chanB jb k) = A (chan j k)) (p q p' q' : Nat) (hp : p = p') (hq : q = q') :
    mixB P jb p q = mix A j p' q' := by
  subst hp hq
  unfold mixB mix
  rw [hP 0, hP 1, hP 2, hP 3]

/-- The printed index maps, decided over the 32 grid points: the input and output blocks move together on the batch and
    channel-block axes, neither is cut on the pixel axes, and the output's block indices stay in range. -/
theorem grid_facts : ∀ t : Fin cfg0.N,
    win0_0.index t (0 : Fin 4) = win0_1.index t (0 : Fin 4)
    ∧ win0_0.index t (1 : Fin 4) = win0_1.index t (1 : Fin 4)
    ∧ win0_0.index t (2 : Fin 4) = 0 ∧ win0_0.index t (3 : Fin 4) = 0
    ∧ win0_1.index t (2 : Fin 4) = 0 ∧ win0_1.index t (3 : Fin 4) = 0
    ∧ win0_1.index t (0 : Fin 4) ≤ 7 ∧ win0_1.index t (1 : Fin 4) ≤ 3 :=
  (by decide +kernel : ∀ t : Fin grid0.N, _)

/-- Every (batch entry, channel block) is some point's. -/
theorem grid_onto : ∀ (q0 : Fin 8) (q1 : Fin 4), ∃ t : Fin cfg0.N, win0_1.index t = ![q0.val, q1.val, 0, 0] :=
  (by decide +kernel : ∀ (q0 : Fin 8) (q1 : Fin 4), ∃ t : Fin grid0.N, win0_1.index t = ![q0.val, q1.val, 0, 0])

/-- WHAT POINT `t` WRITES BACK is block `t` of `unsqueeze` of the argument array as the region finds it. -/
theorem flushed_eq (c : Dev nD) (t : Fin cfg0.N) :
    (dats m 0 c).flushed 1 t = ((cfg0.win 1).blk t).view.read (Elt F) (unsqueeze (V m c main_arg0)) := by
  rw [flushed1]
  obtain ⟨e0, e1, e2, e3, e4, e5, e6, e7⟩ := grid_facts t
  funext y
  have hy0 : (y 0).val < 1 := (y 0).isLt
  have hy1 : (y 1).val < 16 := (y 1).isLt
  have hy2 : (y 2).val < 256 := (y 2).isLt
  have hy3 : (y 3).val < 256 := (y 3).isLt
  show out0_1 (iblk m c 0 t) y = unsqueeze (V m c main_arg0) (((cfg0.win 1).blk t).view.emb y)
  unfold out0_1
  rw [canon1_eq, block_eq, View.ld_unit_zero zero_offsets]
  unfold unsqueeze
  refine mixB_eq_mix _ _ _ _ (fun k => ?_) _ _ _ _ ?_ ?_
  · have hk : k.val < 4 := k.isLt
    show V m c main_arg0 (((cfg0.win 0).blk t).view.emb _) = V m c main_arg0 _
    refine congrArg _ (funext fun a => Fin.ext ?_)
    match a with
    | ⟨0, _⟩ =>
      show win0_0.index t (0 : Fin 4) * 1 + 1 * 0 = win0_1.index t (0 : Fin 4) * 1 + 1 * (y 0).val
      omega
    | ⟨1, _⟩ =>
      show win0_0.index t (1 : Fin 4) * 64 + 1 * (4 * (y 1).val + k.val)
        = 4 * (win0_1.index t (1 : Fin 4) * 16 + 1 * (y 1).val) + k.val
      omega
    | ⟨2, _⟩ =>
      show win0_0.index t (2 : Fin 4) * 128 + 1 * ((y 2).val / 2) = (win0_1.index t (2 : Fin 4) * 256 + 1 * (y 2).val) / 2
      omega
    | ⟨3, _⟩ =>
      show win0_0.index t (3 : Fin 4) * 128 + 1 * ((y 3).val / 2) = (win0_1.index t (3 : Fin 4) * 256 + 1 * (y 3).val) / 2
      omega
  · show (y 2).val % 2 = (win0_1.index t (2 : Fin 4) * 256 + 1 * (y 2).val) % 2
    omega
  · show (y 3).val % 2 = (win0_1.index t (3 : Fin 4) * 256 + 1 * (y 3).val) % 2
    omega

/-- An index of the output array is in point `t`'s block iff each coordinate is in the block's range on its axis. -/
theorem mem_blk (t : Fin cfg0.N) (i : S8x64x256x256.Idx) :
    i ∈ ((cfg0.win 1).blk t).view.set ↔ ∀ a : Fin 4, win0_1.index t a * S1x16x256x256.size a ≤ (i a).val
      ∧ (i a).val < win0_1.index t a * S1x16x256x256.size a + S1x16x256x256.size a := by
  show i ∈ ((View.whole main_v0).slice (win0_1.rect t)).set ↔ _
  rw [View.set_slice_whole, Rect.mem_set_unit]
  exact Iff.rfl

/-- THE BLOCKS COVER THE ARRAY: output position (b, g, r, s) is in the block of the point with batch entry b and channel
    block g / 16. -/
theorem covered (i : S8x64x256x256.Idx) :
    ∃ t : Fin cfg0.N, (cfg0.win 1).flush t = true ∧ i ∈ ((cfg0.win 1).blk t).view.set := by
  have hi0 : (i 0).val < 8 := (i 0).isLt
  have hi1 : (i 1).val < 64 := (i 1).isLt
  have hi2 : (i 2).val < 256 := (i 2).isLt
  have hi3 : (i 3).val < 256 := (i 3).isLt
  obtain ⟨t, ht⟩ := grid_onto ⟨(i 0).val, hi0⟩ ⟨(i 1).val / 16, by omega⟩
  have q0 : win0_1.index t (0 : Fin 4) = (i 0).val := congrFun ht 0
  have q1 : win0_1.index t (1 : Fin 4) = (i 1).val / 16 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ =>
    show win0_1.index t (0 : Fin 4) * 1 ≤ (i 0).val ∧ (i 0).val < win0_1.index t (0 : Fin 4) * 1 + 1
    omega
  | ⟨1, _⟩ =>
    show win0_1.index t (1 : Fin 4) * 16 ≤ (i 1).val ∧ (i 1).val < win0_1.index t (1 : Fin 4) * 16 + 16
    omega
  | ⟨2, _⟩ =>
    show win0_1.index t (2 : Fin 4) * 256 ≤ (i 2).val ∧ (i 2).val < win0_1.index t (2 : Fin 4) * 256 + 256
    omega
  | ⟨3, _⟩ =>
    show win0_1.index t (3 : Fin 4) * 256 ≤ (i 3).val ∧ (i 3).val < win0_1.index t (3 : Fin 4) * 256 + 256
    omega

/-- THE OUTPUT ARRAY after the run is `unsqueeze` of the argument array. -/
theorem final (c : Dev nD) :
    (dats m 0 c).arrAt 1 cfg0.N = unsqueeze (m ((c : Thread nD τ).loc main_arg0)) :=
  (dats m 0 c).arrAt_eq_of_cover 1 (unsqueeze (V m c main_arg0)) (fun t _ => flushed_eq m c t) covered

/-- The kernel's run, read: the result array is `unsqueeze` of the argument array, the argument unchanged. -/
theorem run : θ_run defs (onTc (τ := τ) (main (F := F))) ⟨m, fun _ => 0, ρ⟩ fun r => ∀ c : Dev nD,
      r.2.mem ((c : Thread nD τ).loc main_v0) = unsqueeze (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.ArrayValue

end
-- ==== Proof.lean ====
/-
  The kernel and its reference compute the same inverse Haar step ("unsqueeze") of a batch of images.

  The argument is float32[8, 256, 128, 128]: per batch entry 64 groups of four 128 × 128 planes (a, h, v, d). The result is
  float32[8, 64, 256, 256]: group g's plane at (r, s) is ½ times a signed sum of the four planes at pixel (r / 2, s / 2),
  the signs chosen by the parities of r and s (`Haar.unsqueeze`, Proof/HaarSpec.lean).

  Both programs spell the four signed sums with the same additions and subtractions in the same order and scale by the
  same word for ½, so no law of arithmetic — and nothing about the inputs being finite — is needed: the equality of the
  two results holds operation by operation, and the whole proof is about where each program reads and writes.
    * The reference (a host program) reshapes channels into (group, plane), slices the planes, combines, stacks the four
      results along two new axes, transposes and merges: Proof/RefStages.lean reads its last stage at an index.
    * The kernel does the same inside each of 32 blocks (one batch entry × 16 groups): Proof/KernelBlock.lean reads the block a
      grid point leaves, Proof/KernelArray.lean places the blocks in the array and shows they tile it.
  The three programs' runs terminate without fault and leave the argument unchanged by their generated frame and run
  modules; the idealised kernel is the kernel's own text read over the extended reals (no rewrite was applied).
-/
import proofs.«132142_j7387343749494_1_alg».proof.Defs
import proofs.«132142_j7387343749494_1_alg».proof.Proof.Gen.Kernel
import proofs.«132142_j7387343749494_1_alg».proof.Proof.Gen.Kernel.Skeleton
import proofs.«132142_j7387343749494_1_alg».proof.Proof.Gen.Kernel.Launch
import proofs.«132142_j7387343749494_1_alg».proof.Proof.Gen.Kernel.Points
import proofs.«132142_j7387343749494_1_alg».proof.Proof.Gen.Kernel.Frame
import proofs.«132142_j7387343749494_1_alg».proof.Proof.Gen.KernelIdeal
import proofs.«132142_j7387343749494_1_alg».proof.Proof.Gen.KernelIdeal.Skeleton
import proofs.«132142_j7387343749494_1_alg».proof.Proof.Gen.KernelIdeal.Launch
import proofs.«132142_j7387343749494_1_alg».proof.Proof.Gen.KernelIdeal.Points
import proofs.«132142_j7387343749494_1_alg».proof.Proof.Gen.KernelIdeal.Frame
import proofs.«132142_j7387343749494_1_alg».proof.Proof.Gen.ReferenceIdeal
import proofs.«132142_j7387343749494_1_alg».proof.Proof.Gen.KernelIdeal.Value
import proofs.«132142_j7387343749494_1_alg».proof.Proof.Gen.ReferenceIdeal.Run
import proofs.«132142_j7387343749494_1_alg».proof.Proof.Gen.ReferenceIdeal.Read
import proofs.«132142_j7387343749494_1_alg».proof.Proof.Gen.Pre_finite_inputs
import proofs.«132142_j7387343749494_1_alg».proof.Proof.HaarSpec
import proofs.«132142_j7387343749494_1_alg».proof.Proof.RefStages
import proofs.«132142_j7387343749494_1_alg».proof.Proof.KernelBlock
import proofs.«132142_j7387343749494_1_alg».proof.Proof.KernelArray
import Idealize.ShloMosaic.Adequacy
import Idealize.ShloMosaic.Init

noncomputable section

namespace Cert.Proof

open Idealize.ShloMosaic Idealize.ShloMosaic.TcCoe Idealize.SL.Sem

/-- The kernel, word level: it runs and leaves its argument unchanged. -/
theorem frame_kernel : Cert.frame_Kernel := fun m ρ _ => Cert.Kernel.Gen.frame m ρ

/-- The kernel over the extended reals: the same. -/
theorem frame_kernel_ideal : Cert.frame_KernelIdeal := fun m ρ _ => Cert.KernelIdeal.Gen.frame m ρ

/-- The reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals, so there is nothing to preserve. -/
theorem preserves : Cert.preserves_Kernel_KernelIdeal := trivial

/-- From memories that agree on the argument, the kernel's result array and the reference's are both
    `Haar.unsqueeze` of that argument. -/
theorem algebraic : Cert.algebraic_KernelIdeal_ReferenceIdeal := by
  intro m ρ m' ρ' _ hagree
  refine ⟨_, Cert.KernelIdeal.ArrayValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
